-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x16 : Shape := ⟨2, ![2000000, 16]⟩
abbrev S_ : Shape := ⟨0, ![]⟩

class Facts : Prop where
  bcast_S_S2000000x16 : S_.BroadcastsInDim S2000000x16 (![] : Fin 0 → Fin S2000000x16.rank)
  reducesTo_S2000000x16_S_d0_1 : S2000000x16.ReducesTo [0, 1] S_
  h_S_ : 0 < S_.numel

variable [Facts]

def fn {F : FTy → Type} [FloatOps F] (main_arg0 : FVec F S2000000x16 .f32) (main_arg1 : FVec F S2000000x16 .f32) : IVec S_ 1 :=
  let main_v0 : FVec F S2000000x16 .f32 := Host.absf main_arg0
  let main_cst : FVec F S_ .f32 := constant S_ .f32 0x7F800000#32
  let main_v1 : FVec F S2000000x16 .f32 := broadcastInDim S2000000x16 ![] bcast_S_S2000000x16 main_cst
  let main_v2 : IVec S2000000x16 1 := cmpf .olt main_v0 main_v1
  let main_c : IVec S_ 1 := constantI S_ 1 1#1
  let main_v3 : IVec S_ 1 := (fun x v => Host.reduce IntOp.andi x v reducesTo_S2000000x16_S_d0_1 h_S_) main_v2 main_c
  let main_v4 : FVec F S2000000x16 .f32 := Host.absf main_arg1
  let main_cst_0 : FVec F S_ .f32 := constant S_ .f32 0x7F800000#32
  let main_v5 : FVec F S2000000x16 .f32 := broadcastInDim S2000000x16 ![] bcast_S_S2000000x16 main_cst_0
  let main_v6 : IVec S2000000x16 1 := cmpf .olt main_v4 main_v5
  let main_c_1 : IVec S_ 1 := constantI S_ 1 1#1
  let main_v7 : IVec S_ 1 := (fun x v => Host.reduce IntOp.andi x v reducesTo_S2000000x16_S_d0_1 h_S_) main_v6 main_c_1
  let main_v8 : IVec S_ 1 := andi main_v3 main_v7
  main_v8
-- ==== Kernel.lean ====
abbrev S2000000x16 : Shape := ⟨2, ![2000000, 16]⟩
abbrev S250000x128 : Shape := ⟨2, ![250000, 128]⟩
abbrev S250000x32 : Shape := ⟨2, ![250000, 32]⟩
abbrev S5000x128 : Shape := ⟨2, ![5000, 128]⟩
abbrev S5000x32 : Shape := ⟨2, ![5000, 32]⟩
abbrev S5000x1 : Shape := ⟨2, ![5000, 1]⟩
abbrev S5000x3 : Shape := ⟨2, ![5000, 3]⟩
abbrev S5000 : Shape := ⟨1, ![5000]⟩
abbrev S5000x5 : Shape := ⟨2, ![5000, 5]⟩
abbrev S5000x7 : Shape := ⟨2, ![5000, 7]⟩
abbrev S2000000x4 : Shape := ⟨2, ![2000000, 4]⟩

abbrev nBuf : Space → Nat
  | .hbm => 6
  | .vmem => 6
  | .smem => 0
  | _ => 0

abbrev bufTy : (tb : Table) → Fin (tcTables nBuf tb) → BufTy
  | .hbm, ⟨0, _⟩ => ⟨S2000000x16, .f32⟩
  | .hbm, ⟨1, _⟩ => ⟨S2000000x16, .f32⟩
  | .hbm, ⟨2, _⟩ => ⟨S250000x128, .f32⟩
  | .hbm, ⟨3, _⟩ => ⟨S250000x128, .f32⟩
  | .hbm, ⟨4, _⟩ => ⟨S250000x32, .f32⟩
  | .hbm, ⟨5, _⟩ => ⟨S2000000x4, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x32, .f32⟩
  | .local _ .vmem, ⟨5, _⟩ => ⟨S5000x32, .f32⟩
  | _, _ => ⟨S2000000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S2000000x16_S250000x128 : S2000000x16.ShapeCasts S250000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  slices_S5000x128_o0_0_S5000x1 : S5000x128.Slices ![0, 0] S5000x1
  slices_S5000x128_o0_1_S5000x3 : S5000x128.Slices ![0, 1] S5000x3
  reduces_S5000x3_S5000 : S5000x3.Reduces [1] S5000
  shapeCasts_S5000_S5000x1 : S5000.ShapeCasts S5000x1
  slices_S5000x128_o0_4_S5000x5 : S5000x128.Slices ![0, 4] S5000x5
  reduces_S5000x5_S5000 : S5000x5.Reduces [1] S5000
  slices_S5000x128_o0_9_S5000x7 : S5000x128.Slices ![0, 9] S5000x7
  reduces_S5000x7_S5000 : S5000x7.Reduces [1] S5000
  slices_S5000x128_o0_16_S5000x1 : S5000x128.Slices ![0, 16] S5000x1
  slices_S5000x128_o0_17_S5000x3 : S5000x128.Slices ![0, 17] S5000x3
  slices_S5000x128_o0_20_S5000x5 : S5000x128.Slices ![0, 20] S5000x5
  slices_S5000x128_o0_25_S5000x7 : S5000x128.Slices ![0, 25] S5000x7
  slices_S5000x128_o0_32_S5000x1 : S5000x128.Slices ![0, 32] S5000x1
  slices_S5000x128_o0_33_S5000x3 : S5000x128.Slices ![0, 33] S5000x3
  slices_S5000x128_o0_36_S5000x5 : S5000x128.Slices ![0, 36] S5000x5
  slices_S5000x128_o0_41_S5000x7 : S5000x128.Slices ![0, 41] S5000x7
  slices_S5000x128_o0_48_S5000x1 : S5000x128.Slices ![0, 48] S5000x1
  slices_S5000x128_o0_49_S5000x3 : S5000x128.Slices ![0, 49] S5000x3
  slices_S5000x128_o0_52_S5000x5 : S5000x128.Slices ![0, 52] S5000x5
  slices_S5000x128_o0_57_S5000x7 : S5000x128.Slices ![0, 57] S5000x7
  slices_S5000x128_o0_64_S5000x1 : S5000x128.Slices ![0, 64] S5000x1
  slices_S5000x128_o0_65_S5000x3 : S5000x128.Slices ![0, 65] S5000x3
  slices_S5000x128_o0_68_S5000x5 : S5000x128.Slices ![0, 68] S5000x5
  slices_S5000x128_o0_73_S5000x7 : S5000x128.Slices ![0, 73] S5000x7
  slices_S5000x128_o0_80_S5000x1 : S5000x128.Slices ![0, 80] S5000x1
  slices_S5000x128_o0_81_S5000x3 : S5000x128.Slices ![0, 81] S5000x3
  slices_S5000x128_o0_84_S5000x5 : S5000x128.Slices ![0, 84] S5000x5
  slices_S5000x128_o0_89_S5000x7 : S5000x128.Slices ![0, 89] S5000x7
  slices_S5000x128_o0_96_S5000x1 : S5000x128.Slices ![0, 96] S5000x1
  slices_S5000x128_o0_97_S5000x3 : S5000x128.Slices ![0, 97] S5000x3
  slices_S5000x128_o0_100_S5000x5 : S5000x128.Slices ![0, 100] S5000x5
  slices_S5000x128_o0_105_S5000x7 : S5000x128.Slices ![0, 105] S5000x7
  slices_S5000x128_o0_112_S5000x1 : S5000x128.Slices ![0, 112] S5000x1
  slices_S5000x128_o0_113_S5000x3 : S5000x128.Slices ![0, 113] S5000x3
  slices_S5000x128_o0_116_S5000x5 : S5000x128.Slices ![0, 116] S5000x5
  slices_S5000x128_o0_121_S5000x7 : S5000x128.Slices ![0, 121] S5000x7
  concatenates_S5000x1_S5000x1_S5000x1_S5000x1_S5000x1_S5000x1_S5000x1_S5000x1_S5000x1_S5000x1_S5000x1_S5000x1_S5000x1_S5000x1_S5000x1_S5000x1_S5000x1_S5000x1_S5000x1_S5000x1_S5000x1_S5000x1_S5000x1_S5000x1_S5000x1_S5000x1_S5000x1_S5000x1_S5000x1_S5000x1_S5000x1_S5000x1_S5000x32_d1 : Shape.Concatenates [S5000x1, S5000x1, S5000x1, S5000x1, S5000x1, S5000x1, S5000x1, S5000x1, S5000x1, S5000x1, S5000x1, S5000x1, S5000x1, S5000x1, S5000x1, S5000x1, S5000x1, S5000x1, S5000x1, S5000x1, S5000x1, S5000x1, S5000x1, S5000x1, S5000x1, S5000x1, S5000x1, S5000x1, S5000x1, S5000x1, S5000x1, S5000x1] S5000x32 1
  inb_S5000x32_S5000x32_0_0 : ∀ a, (![0, 0] : Fin 2 → Nat) a + S5000x32.size a ≤ S5000x32.size a
  h_S5000x32 : 0 < S5000x32.numel
  shapeCasts_S250000x32_S2000000x4 : S250000x32.ShapeCasts S2000000x4
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S250000x128.size a
  hwx0_0 : ∀ i : grid0.Coords, EltTy.bits .f32 = 32 ∨ (Rect.block (s := S250000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S250000x128.size a
  hwx0_1 : ∀ i : grid0.Coords, EltTy.bits .f32 = 32 ∨ (Rect.block (s := S250000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S250000x32.size a
  hwx0_2 : ∀ i : grid0.Coords, EltTy.bits .f32 = 32 ∨ (Rect.block (s := S250000x32) S5000x32.size (cc0_transform_2 i) (hinb0_2 i)).WholeWords (EltTy.packing .f32)

variable [Facts₀]

abbrev win0_0 : Pipeline.Window sig grid0 :=
  Pipeline.Window.ofSpec (Memref.whole main_v0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S5000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2000000x16 : Shape := ⟨2, ![2000000, 16]⟩
abbrev S16x4 : Shape := ⟨2, ![16, 4]⟩
abbrev S2000000x4 : Shape := ⟨2, ![2000000, 4]⟩

abbrev nBuf : Space → Nat
  | .hbm => 5
  | .vmem => 0
  | .smem => 0
  | _ => 0

abbrev bufTy : (tb : Table) → Fin (tcTables nBuf tb) → BufTy
  | .hbm, ⟨0, _⟩ => ⟨S2000000x16, .f32⟩
  | .hbm, ⟨1, _⟩ => ⟨S2000000x16, .f32⟩
  | .hbm, ⟨2, _⟩ => ⟨S16x4, .f32⟩
  | .hbm, ⟨3, _⟩ => ⟨S2000000x16, .f32⟩
  | .hbm, ⟨4, _⟩ => ⟨S2000000x4, .f32⟩
  | _, _ => ⟨S2000000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S2000000x16_S16x4_S2000000x4_1_0_0_1_n_n_wf : DotDims.WF S2000000x16 S16x4 S2000000x4 [1] [0] [0] [1] [] []

variable [Facts₀]

def dot_S2000000x16_S16x4_S2000000x4_1_0_0_1_n_n : DotDims S2000000x16 S16x4 S2000000x4 where
  lhsContracting := [1]
  rhsContracting := [0]
  lhsNonContracting := [0]
  rhsNonContracting := [1]
  lhsBatch := []
  rhsBatch := []
  wf := dot_S2000000x16_S16x4_S2000000x4_1_0_0_1_n_n_wf

class Facts : Prop extends Facts₀ where

variable [Facts]
-- ==== Proof.Spec.lean ====
/-
  The value both programs compute, as one function of the two argument arrays.

  A row of sixteen products z(d) = x(n, d) · y(n, d) is cut into four consecutive segments of widths 1, 3, 5 and 7
  (the degrees l = 0, 1, 2, 3 of a spherical-harmonic feature vector, 2l + 1 entries each, starting at 0, 1, 4, 9).
  Entry (n, l) of the result is the sum of segment l of row n, times the weight of degree l — the single-precision
  value nearest to 1/sqrt(2l + 1), kept here as the extended real its bit pattern denotes and never evaluated.
-/
import Idealize.ShloMosaic.Lib.ValueIdx
import Idealize.ShloMosaic.PureOps.Ideal.Laws

noncomputable section

open scoped BigOperators

namespace Cert.SegSpec

open Idealize.ShloMosaic Idealize.ShloMosaic.ValueIdx

/-- The weight of degree `l`: the extended real the program's literal denotes. -/
def wt : Fin 4 → EReal
  | ⟨0, _⟩ => Ideal.ofBits .f32 0x3F800000#32
  | ⟨1, _⟩ => Ideal.ofBits .f32 0x3F13CD3A#32
  | ⟨2, _⟩ => Ideal.ofBits .f32 0x3EE4F92E#32
  | ⟨3, _⟩ => Ideal.ofBits .f32 0x3EC1848F#32

/-- The weighted sum of segment `l` of a row of sixteen values. -/
def segval (row : Fin 16 → EReal) : Fin 4 → EReal
  | ⟨0, _⟩ => row ⟨0, by omega⟩ * wt 0
  | ⟨1, _⟩ => (∑ k : Fin 3, row ⟨1 + k.val, by omega⟩) * wt 1
  | ⟨2, _⟩ => (∑ k : Fin 5, row ⟨4 + k.val, by omega⟩) * wt 2
  | ⟨3, _⟩ => (∑ k : Fin 7, row ⟨9 + k.val, by omega⟩) * wt 3

/-- Entry `(n, l)` of the result: segment `l` of the row of products of row `n` of the two arrays. -/
def Gat (x y : (⟨2, ![2000000, 16]⟩ : Shape).Idx → EReal) (n : Fin 2000000) (l : Fin 4) : EReal :=
  segval (fun d => x (ix2 n d) * y (ix2 n d)) l

/-- The result array. -/
def G (x y : (⟨2, ![2000000, 16]⟩ : Shape).Idx → EReal) : (⟨2, ![2000000, 4]⟩ : Shape).Idx → EReal :=
  fun i => Gat x y (i 0) (i 1)

theorem G_apply (x y : (⟨2, ![2000000, 16]⟩ : Shape).Idx → EReal) (n : Fin 2000000) (l : Fin 4) :
    G x y (ix2 n l) = Gat x y n l := rfl

end Cert.SegSpec

end
-- ==== Proof.Lanes.lean ====
/-
  The kernel's packed layout.

  The kernel reads its two 2000000 × 16 arguments re-laid as 250000 × 128 arrays: eight consecutive original rows
  side by side in one row of 128 lanes, so that lane 16 g + d of packed row R is entry d of original row 8 R + g. It
  writes a 250000 × 32 array whose column 4 g + l of packed row R is the degree-l value of original row 8 R + g.
-/
import proofs.«110021_j53154515255873_2_alg».proof.Proof.Spec

noncomputable section

open scoped BigOperators

namespace Cert.KSide

open Idealize.ShloMosaic Idealize.ShloMosaic.ValueIdx Cert.SegSpec

/-- Lane `d` of group `g` of a 128-lane row. -/
def lane (g : Fin 8) (d : Fin 16) : Fin 128 := ⟨16 * g.val + d.val, by omega⟩

/-- Entry `(R, q)` of the packed result: the weighted segment sum of degree `q % 4` of group `q / 4` of packed
    row `R` of the entrywise product of the two packed operands. -/
def GoutAt (X Y : (⟨2, ![250000, 128]⟩ : Shape).Idx → EReal) (R : Fin 250000) (q : Fin 32) : EReal :=
  segval (fun d => X (ix2 R (lane ⟨q.val / 4, by have := q.isLt; omega⟩ d)) * Y (ix2 R (lane ⟨q.val / 4, by have := q.isLt; omega⟩ d)))
    ⟨q.val % 4, by omega⟩

/-- The packed result array. -/
def Gout (X Y : (⟨2, ![250000, 128]⟩ : Shape).Idx → EReal) : (⟨2, ![250000, 32]⟩ : Shape).Idx → EReal :=
  fun i => GoutAt X Y (i 0) (i 1)

theorem Gout_apply (X Y : (⟨2, ![250000, 128]⟩ : Shape).Idx → EReal) (R : Fin 250000) (q : Fin 32) :
    Gout X Y (ix2 R q) = GoutAt X Y R q := rfl

end Cert.KSide

end
-- ==== Proof.LibColumn.lean ====
/-
  A column of per-row values laid beside a matrix, read at an index.

  A reduction over a matrix's second axis with the axis kept ("keepdims") leaves one value per row, stored as a
  vector of length a, re-cast as an a × 1 column, and then broadcast across the b columns of the matrix it is
  combined with.  At entry (p, c) each of these re-layings reads the one value of row p: the cast keeps the row-major
  position, and the broadcast reads a unit axis at coordinate 0 whatever the column.
-/
import Idealize.ShloMosaic.Lib.Pipeline.Value
import Idealize.ShloMosaic.Lib.ValueIdx

namespace Cert.LibColumn

open Idealize.ShloMosaic Idealize.ShloMosaic.ValueIdx

variable {α : Type}

/-- A vector of length `a` cast to an `a × 1` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column cast to itself is itself. -/
theorem shapeCast_a1_a1_apply {a : ℕ} (x : (⟨2, ![a, 1]⟩ : Shape).Idx → α) (h : (⟨2, ![a, 1]⟩ : Shape).ShapeCasts ⟨2, ![a, 1]⟩)
    (j : (⟨2, ![a, 1]⟩ : Shape).Idx) : shapeCast ⟨2, ![a, 1]⟩ x h j = x j := by
  rw [shapeCast_self]

/-- An `a × 1` column broadcast across `b` columns reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Cert.LibColumn
-- ==== Proof.KPiece.lean ====
/-
  One column of the kernel's output block, read at a row.

  The body multiplies its two 5000 × 128 blocks entry by entry and cuts each row of the product into eight groups of
  sixteen lanes; group g holds the sixteen products of one original row. From every group it takes four values: the
  lane at offset 0 times the first weight, and the sums of the three, five and seven lanes at offsets 1, 4 and 9 times
  the second, third and fourth weight. Each value is a 5000 × 1 column (a lane slice; or a lane slice summed along the
  lanes, re-cast as a column), multiplied by a column filled with the weight.

  Read at row r, the column of group g and degree l is the weighted segment sum of the sixteen values
  z(r, 16 g + d), d < 16: the specification's function of that row of sixteen.
-/
import proofs.«110021_j53154515255873_2_alg».proof.KernelIdeal
import proofs.«110021_j53154515255873_2_alg».proof.Proof.Spec
import proofs.«110021_j53154515255873_2_alg».proof.Proof.Lanes
import proofs.«110021_j53154515255873_2_alg».proof.Proof.LibColumn
import Idealize.ShloMosaic.Lib.ValueIdx
import Idealize.ShloMosaic.Lib.Pipeline.Value
import Idealize.ShloMosaic.PureOps.Ideal.Laws

noncomputable section

open scoped BigOperators

namespace Cert.KSide

open Idealize.ShloMosaic Idealize.ShloMosaic.ValueIdx Cert.KernelIdeal Cert.SegSpec

/-- A block of `W` lanes from lane `o` lies inside the 128 lanes. -/
theorem slices_lanes (o W : ℕ) (h : o + W ≤ 128) : S5000x128.Slices ![0, o] ⟨2, ![5000, W]⟩ :=
  ⟨rfl, fun a => by
    match a with
    | ⟨0, _⟩ => exact Nat.le_refl _
    | ⟨1, _⟩ => exact h⟩

/-- The reduced row index with lane `k` put back is `(r, k)`. -/
theorem lift_row {W : ℕ} (h : (⟨2, ![5000, W]⟩ : Shape).Reduces [1] S5000) (r : Fin 5000)
    (k : Fin ((⟨2, ![5000, W]⟩ : Shape).size 1)) :
    h.lift (ix1 r) k = ix2 r (⟨k.val, k.isLt⟩ : Fin W) := by
  funext c; apply Fin.ext
  fin_cases c <;> rfl

/-- A sum along the lanes of a 5000 × W block, read at row `r`: the sum of the row's W entries. -/
theorem rowsum_apply {W : ℕ} (src : FVec Ideal ⟨2, ![5000, W]⟩ .f32) (hr : (⟨2, ![5000, W]⟩ : Shape).Reduces [1] S5000)
    (hφ : FKind.Formats .f32) (hacc : (0x00000000#32 : BitVec 32) = FKind.add.neutral .f32 hφ) (r : Fin 5000) :
    multiReduction (F := Ideal) .add [1] S5000 src 0x00000000#32 hr hφ hacc (ix1 r) = ∑ k : Fin W, src (ix2 r k) := by
  refine (Ideal.multiReduction_add_single (φ := .f32) (a := 1) src 0x00000000#32 hr hφ hacc (ix1 r)).trans ?_
  show ∑ k : Fin W, src (hr.lift (ix1 r) k) = _
  refine Finset.sum_congr rfl fun k _ => ?_
  rw [lift_row hr r k]

/-- The column of a single lane `o`, times the weight word. -/
def onePiece (word : BitVec 32) (z : FVec Ideal S5000x128 .f32) (o : ℕ) (hs : S5000x128.Slices ![0, o] S5000x1) :
    FVec Ideal S5000x1 .f32 :=
  mulf (extractStridedSlice S5000x1 ![0, o] z hs) (broadcast S5000x1 (Scalar.ofBits (F := Ideal) .f32 word))

/-- At row `r` it is that lane's entry times the weight. -/
theorem onePiece_apply (word : BitVec 32) (z : FVec Ideal S5000x128 .f32) (o : ℕ) (hs : S5000x128.Slices ![0, o] S5000x1)
    (ho : o < 128) (r : Fin 5000) (u : Fin 1) :
    onePiece word z o hs (ix2 r u) = z (ix2 r (⟨o, ho⟩ : Fin 128)) * Ideal.ofBits .f32 word := by
  unfold onePiece
  rw [mulf_apply]
  refine congrArg₂ (· * ·) ?_ rfl
  refine extractStridedSlice_apply ![0, o] z hs (ix2 r u) (ix2 r (⟨o, ho⟩ : Fin 128)) fun a => ?_
  match a with
  | ⟨0, _⟩ => show r.val = 0 + r.val; omega
  | ⟨1, _⟩ => show o = o + u.val; omega

/-- The column of the sums of `W` lanes from lane `o`, times the weight word. -/
def sumPiece (W : ℕ) (word : BitVec 32) (z : FVec Ideal S5000x128 .f32) (o : ℕ)
    (hs : S5000x128.Slices ![0, o] ⟨2, ![5000, W]⟩) (hr : (⟨2, ![5000, W]⟩ : Shape).Reduces [1] S5000)
    (hc : S5000.ShapeCasts S5000x1) (hφ : FKind.Formats .f32) (hacc : (0x00000000#32 : BitVec 32) = FKind.add.neutral .f32 hφ) :
    FVec Ideal S5000x1 .f32 :=
  mulf (shapeCast S5000x1 (multiReduction (F := Ideal) .add [1] S5000 (extractStridedSlice ⟨2, ![5000, W]⟩ ![0, o] z hs)
      0x00000000#32 hr hφ hacc) hc)
    (broadcast S5000x1 (Scalar.ofBits (F := Ideal) .f32 word))

/-- At row `r` it is the sum of those lanes' entries times the weight. -/
theorem sumPiece_apply (W : ℕ) (word : BitVec 32) (z : FVec Ideal S5000x128 .f32) (o : ℕ)
    (hs : S5000x128.Slices ![0, o] ⟨2, ![5000, W]⟩) (hr : (⟨2, ![5000, W]⟩ : Shape).Reduces [1] S5000)
    (hc : S5000.ShapeCasts S5000x1) (hφ : FKind.Formats .f32) (hacc : (0x00000000#32 : BitVec 32) = FKind.add.neutral .f32 hφ)
    (hW : o + W ≤ 128) (r : Fin 5000) (u : Fin 1) :
    sumPiece W word z o hs hr hc hφ hacc (ix2 r u)
      = (∑ k : Fin W, z (ix2 r (⟨o + k.val, by have := k.isLt; omega⟩ : Fin 128))) * Ideal.ofBits .f32 word := by
  unfold sumPiece
  rw [mulf_apply]
  refine congrArg₂ (· * ·) ?_ rfl
  rw [Cert.LibColumn.shapeCast_a_a1_apply]
  refine (rowsum_apply _ hr hφ hacc r).trans ?_
  refine Finset.sum_congr rfl fun k _ => ?_
  refine extractStridedSlice_apply ![0, o] z hs (ix2 r k) (ix2 r (⟨o + k.val, by have := k.isLt; omega⟩ : Fin 128)) fun a => ?_
  match a with
  | ⟨0, _⟩ => show r.val = 0 + r.val; omega
  | ⟨1, _⟩ => rfl

variable [Facts₀]
open Facts₀

/-- The column of group `g` and degree `l`. -/
def piece (z : FVec Ideal S5000x128 .f32) (g : Fin 8) : Fin 4 → FVec Ideal S5000x1 .f32
  | ⟨0, _⟩ => onePiece 0x3F800000#32 z (16 * g.val) (slices_lanes _ 1 (by omega))
  | ⟨1, _⟩ => sumPiece 3 0x3F13CD3A#32 z (16 * g.val + 1) (slices_lanes _ 3 (by omega)) reduces_S5000x3_S5000 shapeCasts_S5000_S5000x1 (.inl rfl) rfl
  | ⟨2, _⟩ => sumPiece 5 0x3EE4F92E#32 z (16 * g.val + 4) (slices_lanes _ 5 (by omega)) reduces_S5000x5_S5000 shapeCasts_S5000_S5000x1 (.inl rfl) rfl
  | ⟨3, _⟩ => sumPiece 7 0x3EC1848F#32 z (16 * g.val + 9) (slices_lanes _ 7 (by omega)) reduces_S5000x7_S5000 shapeCasts_S5000_S5000x1 (.inl rfl) rfl

/-- At row `r` it is the weighted segment sum of the group's sixteen lanes. -/
theorem piece_apply (z : FVec Ideal S5000x128 .f32) (g : Fin 8) (l : Fin 4) (r : Fin 5000) (u : Fin 1) :
    piece z g l (ix2 r u) = segval (fun d => z (ix2 r (lane g d))) l := by
  match l with
  | ⟨0, _⟩ =>
    exact onePiece_apply _ z (16 * g.val) _ (by omega) r u
  | ⟨1, _⟩ =>
    refine (sumPiece_apply 3 _ z (16 * g.val + 1) _ _ _ _ _ (by omega) r u).trans ?_
    show _ = (∑ k : Fin 3, z (ix2 r (lane g ⟨1 + k.val, by omega⟩))) * wt 1
    refine congrArg₂ (· * ·) (Finset.sum_congr rfl fun k _ => congrArg z (congrArg (ix2 r) (Fin.ext ?_))) rfl
    show 16 * g.val + 1 + k.val = 16 * g.val + (1 + k.val); omega
  | ⟨2, _⟩ =>
    refine (sumPiece_apply 5 _ z (16 * g.val + 4) _ _ _ _ _ (by omega) r u).trans ?_
    show _ = (∑ k : Fin 5, z (ix2 r (lane g ⟨4 + k.val, by omega⟩))) * wt 2
    refine congrArg₂ (· * ·) (Finset.sum_congr rfl fun k _ => congrArg z (congrArg (ix2 r) (Fin.ext ?_))) rfl
    show 16 * g.val + 4 + k.val = 16 * g.val + (4 + k.val); omega
  | ⟨3, _⟩ =>
    refine (sumPiece_apply 7 _ z (16 * g.val + 9) _ _ _ _ _ (by omega) r u).trans ?_
    show _ = (∑ k : Fin 7, z (ix2 r (lane g ⟨9 + k.val, by omega⟩))) * wt 3
    refine congrArg₂ (· * ·) (Finset.sum_congr rfl fun k _ => congrArg z (congrArg (ix2 r) (Fin.ext ?_))) rfl
    show 16 * g.val + 9 + k.val = 16 * g.val + (9 + k.val); omega

/-- Column `q` of the 32: group `q / 4`, degree `q % 4`. -/
def pieceAt (z : FVec Ideal S5000x128 .f32) (q : Fin 32) : FVec Ideal S5000x1 .f32 :=
  piece z ⟨q.val / 4, by have := q.isLt; omega⟩ ⟨q.val % 4, by omega⟩

end Cert.KSide

end
-- ==== Proof.KBody.lean ====
/-
  What the kernel body leaves in its output block, entry by entry.

  The body stores one value: the 32 columns of the product block laid side by side. Entry (r, q) of the stored
  block is therefore column q read at row r — the weighted segment sum of degree q % 4 of group q / 4 of row r of the
  product of the two input blocks.
-/
import proofs.«110021_j53154515255873_2_alg».proof.Proof.Gen.KernelIdeal.Frame
import proofs.«110021_j53154515255873_2_alg».proof.Proof.KPiece

noncomputable section

open scoped BigOperators

namespace Cert.KSide

open Idealize.ShloMosaic Idealize.ShloMosaic.ValueIdx Cert.KernelIdeal Cert.KernelIdeal.Gen Cert.SegSpec
open Cert.KernelIdeal.Facts₀

theorem zero_offsets : (![0, 0] : Fin 2 → Nat) = fun _ => 0 := funext fun a => by fin_cases a <;> rfl

/-- The product block at an entry. -/
theorem product_apply (x0 x1 : Vec Ideal S5000x128 .f32) (j : S5000x128.Idx) :
    k0_pay2 (F := Ideal) x0 x1 j = x0 j * x1 j := by
  unfold k0_pay2
  rw [mulf_apply, shapeCast_self, shapeCast_self]

/-- The stored block is the 32 columns of the product block side by side. -/
theorem stored_eq_columns (x0 x1 : Vec Ideal S5000x128 .f32)
    (h : Shape.Concatenates ((List.ofFn fun q : Fin 32 => (⟨S5000x1, pieceAt (k0_pay2 (F := Ideal) x0 x1) q⟩ : (s : Shape) × (s.Idx → EReal))).map (·.1)) S5000x32 1) :
    out0_2 (F := Ideal) x0 x1
      = concatenate S5000x32 1 (List.ofFn fun q : Fin 32 => (⟨S5000x1, pieceAt (k0_pay2 (F := Ideal) x0 x1) q⟩ : (s : Shape) × (s.Idx → EReal))) h := by
  unfold out0_2
  rw [View.canon_unit_zero zero_offsets]
  simp only [View.ld_unit_zero (S := S5000x128) zero_offsets]
  rfl

/-- Entry `(r, q)` of the stored block. -/
theorem stored_apply (x0 x1 : Vec Ideal S5000x128 .f32) (r : Fin 5000) (q : Fin 32) :
    out0_2 (F := Ideal) x0 x1 (ix2 r q)
      = segval (fun d => x0 (ix2 r (lane ⟨q.val / 4, by have := q.isLt; omega⟩ d)) * x1 (ix2 r (lane ⟨q.val / 4, by have := q.isLt; omega⟩ d)))
          ⟨q.val % 4, by omega⟩ := by
  have h : Shape.Concatenates ((List.ofFn fun q : Fin 32 => (⟨S5000x1, pieceAt (k0_pay2 (F := Ideal) x0 x1) q⟩ : (s : Shape) × (s.Idx → EReal))).map (·.1)) S5000x32 1 :=
    Facts₀.concatenates_S5000x1_S5000x1_S5000x1_S5000x1_S5000x1_S5000x1_S5000x1_S5000x1_S5000x1_S5000x1_S5000x1_S5000x1_S5000x1_S5000x1_S5000x1_S5000x1_S5000x1_S5000x1_S5000x1_S5000x1_S5000x1_S5000x1_S5000x1_S5000x1_S5000x1_S5000x1_S5000x1_S5000x1_S5000x1_S5000x1_S5000x1_S5000x1_S5000x32_d1
  rw [stored_eq_columns x0 x1 h]
  refine (concatenate_ofFn_unit_apply (t := S5000x32) (s₁ := S5000x1) (1 : Fin 2) (fun q : Fin 32 => pieceAt (k0_pay2 (F := Ideal) x0 x1) q) h rfl rfl (ix2 r q) q rfl
    (ix2 r (0 : Fin 1)) fun b hb => ?_).trans ?_
  · match b with
    | ⟨0, _⟩ => rfl
    | ⟨1, _⟩ => exact absurd rfl hb
  · unfold pieceAt
    rw [piece_apply]
    refine congrArg (fun row => segval row _) (funext fun d => ?_)
    exact product_apply x0 x1 _

end Cert.KSide

end
-- ==== Proof.KBlocks.lean ====
/-
  From the blocks to the whole output array.

  Grid point t reads rows 5000 t … 5000 t + 4999 of the two packed operands (all 128 lanes) and writes the same rows
  of the packed result (all 32 columns). Entry (r, q) of what it writes is the specification's packed value at row
  5000 t + r, because row r of each input block is row 5000 t + r of its array. The fifty blocks tile the 250000 rows
  (the block holding row R is the one at point R / 5000), so after the run the packed result array is the packed
  specification of the two packed operands as the region finds them.
-/
import proofs.«110021_j53154515255873_2_alg».proof.Proof.Gen.KernelIdeal.Frame
import proofs.«110021_j53154515255873_2_alg».proof.Proof.KBody
import Idealize.ShloMosaic.Lib.Pipeline.Value

noncomputable section

open scoped BigOperators

namespace Cert.KSide

open Idealize.ShloMosaic Idealize.ShloMosaic.TcCoe Idealize.ShloMosaic.ValueIdx Cert.KernelIdeal Cert.KernelIdeal.Gen Cert.SegSpec
open Idealize.SL.Sem

variable (m : (ℓ : Loc nD τ sig) → Buf (Elt Ideal) ℓ)

/-- The three index maps over the grid: every window's block row is the grid point's, its block column 0. -/
theorem idx_facts : ∀ t : Fin cfg0.N, win0_0.index t (0 : Fin 2) = win0_2.index t (0 : Fin 2)
    ∧ win0_0.index t (1 : Fin 2) = 0
    ∧ win0_1.index t (0 : Fin 2) = win0_2.index t (0 : Fin 2)
    ∧ win0_1.index t (1 : Fin 2) = 0
    ∧ win0_2.index t (1 : Fin 2) = 0
    ∧ win0_2.index t (0 : Fin 2) ≤ 49 :=
  (by decide +kernel : ∀ t : Fin grid0.N, _)

/-- Every block row is some point's. -/
theorem idx_onto : ∀ q0 : Fin 50, ∃ t : Fin cfg0.N, win0_2.index t (0 : Fin 2) = q0.val ∧ win0_2.index t (1 : Fin 2) = 0 :=
  (by decide +kernel : ∀ q0 : Fin 50, ∃ t : Fin grid0.N, win0_2.index t (0 : Fin 2) = q0.val ∧ win0_2.index t (1 : Fin 2) = 0)

/-- An entry of the stored block, when row `r` of each input block is row `R` of an array: the packed value at `R`. -/
theorem block_entry (x0 x1 : Vec Ideal S5000x128 .f32) (X Y : S250000x128.Idx → EReal) (r : Fin 5000) (R : Fin 250000) (q : Fin 32)
    (h0 : ∀ cc : Fin 128, x0 (ix2 r cc) = X (ix2 R cc)) (h1 : ∀ cc : Fin 128, x1 (ix2 r cc) = Y (ix2 R cc)) :
    out0_2 (F := Ideal) x0 x1 (ix2 r q) = Gout X Y (ix2 R q) := by
  rw [stored_apply, Gout_apply]
  unfold GoutAt
  refine congrArg (fun row => segval row _) (funext fun d => ?_)
  rw [h0, h1]

/-- What point `t` writes back is block `t` of the packed specification of the operands as the region finds them. -/
theorem flushed_eq (c : Dev nD) (t : Fin cfg0.N) :
    (dats m 0 c).flushed 2 t = ((cfg0.win 2).blk t).view.read (Elt Ideal) (Gout (V m c main_v0) (V m c main_v1)) := by
  show (cfg0.win 2).cut (grid0.coords t) ((dats m 0 c).after 2 t) = _
  rw [after0_2]
  obtain ⟨e0, e1, e2, e3, e4, e5⟩ := idx_facts t
  refine funext fun (j : S5000x32.Idx) => ?_
  show out0_2 (iblk m c 0 t) (iblk m c 1 t) j = Gout (V m c main_v0) (V m c main_v1) (((cfg0.win 2).blk t).view.emb j)
  have hj0 : (j 0).val < 5000 := (j 0).isLt
  have hj1 : (j 1).val < 32 := (j 1).isLt
  have hj : j = ix2 (⟨(j 0).val, hj0⟩ : Fin 5000) (⟨(j 1).val, hj1⟩ : Fin 32) := by
    funext a; match a with | ⟨0, _⟩ => rfl | ⟨1, _⟩ => rfl
  have hi : ((cfg0.win 2).blk t).view.emb j
      = ix2 (⟨win0_2.index t (0 : Fin 2) * 5000 + (j 0).val, by omega⟩ : Fin 250000) (⟨(j 1).val, hj1⟩ : Fin 32) := by
    funext a; apply Fin.ext
    match a with
    | ⟨0, _⟩ => show win0_2.index t (0 : Fin 2) * 5000 + 1 * (j 0).val = win0_2.index t (0 : Fin 2) * 5000 + (j 0).val; omega
    | ⟨1, _⟩ => show win0_2.index t (1 : Fin 2) * 32 + 1 * (j 1).val = (j 1).val; omega
  refine (congrArg (out0_2 (F := Ideal) (iblk m c 0 t) (iblk m c 1 t)) hj).trans ?_
  refine Eq.trans ?_ (congrArg (Gout (V m c main_v0) (V m c main_v1)) hi.symm)
  refine block_entry (iblk m c 0 t) (iblk m c 1 t) (V m c main_v0) (V m c main_v1) _ _ _ (fun cc => ?_) (fun cc => ?_)
  · show V m c main_v0 (((cfg0.win 0).blk t).view.emb (ix2 (⟨(j 0).val, hj0⟩ : Fin 5000) cc)) = _
    refine congrArg (V m c main_v0) (funext fun a => Fin.ext ?_)
    match a with
    | ⟨0, _⟩ => show win0_0.index t (0 : Fin 2) * 5000 + 1 * (j 0).val = win0_2.index t (0 : Fin 2) * 5000 + (j 0).val; omega
    | ⟨1, _⟩ => show win0_0.index t (1 : Fin 2) * 128 + 1 * cc.val = cc.val; omega
  · show V m c main_v1 (((cfg0.win 1).blk t).view.emb (ix2 (⟨(j 0).val, hj0⟩ : Fin 5000) cc)) = _
    refine congrArg (V m c main_v1) (funext fun a => Fin.ext ?_)
    match a with
    | ⟨0, _⟩ => show win0_1.index t (0 : Fin 2) * 5000 + 1 * (j 0).val = win0_2.index t (0 : Fin 2) * 5000 + (j 0).val; omega
    | ⟨1, _⟩ => show win0_1.index t (1 : Fin 2) * 128 + 1 * cc.val = cc.val; omega

/-- An index of the packed result is in point `t`'s block iff each coordinate is in the block's range on its axis. -/
theorem mem_blk (t : Fin cfg0.N) (i : S250000x32.Idx) :
    i ∈ ((cfg0.win 2).blk t).view.set ↔ ∀ a : Fin 2, win0_2.index t a * S5000x32.size a ≤ (i a).val
      ∧ (i a).val < win0_2.index t a * S5000x32.size a + S5000x32.size a := by
  show i ∈ ((View.whole main_v2).slice (win0_2.rect t)).set ↔ _
  rw [View.set_slice_whole, Rect.mem_set_unit]
  exact Iff.rfl

/-- Every index of the packed result is in the block of the point its row names. -/
theorem cover (i : S250000x32.Idx) : ∃ t : Fin cfg0.N, (cfg0.win 2).flush t = true ∧ i ∈ ((cfg0.win 2).blk t).view.set := by
  have hi0 : (i 0).val < 250000 := (i 0).isLt
  have hi1 : (i 1).val < 32 := (i 1).isLt
  obtain ⟨t, q0, q1⟩ := idx_onto ⟨(i 0).val / 5000, by omega⟩
  have q0' : win0_2.index t (0 : Fin 2) = (i 0).val / 5000 := q0
  refine ⟨t, flush0_2 t, ?_⟩
  rw [mem_blk]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 32 ≤ (i 1).val ∧ (i 1).val < win0_2.index t (1 : Fin 2) * 32 + 32
    omega

/-- The packed result array after the run. -/
theorem final (c : Dev nD) : (dats m 0 c).arrAt 2 cfg0.N = Gout (V m c main_v0) (V m c main_v1) :=
  (dats m 0 c).arrAt_eq_of_cover 2 (Gout (V m c main_v0) (V m c main_v1)) (fun t _ => flushed_eq m c t) cover

end Cert.KSide

end
-- ==== Proof.KHost.lean ====
/-
  The host operations of the kernel's entry function, read back.

  The entry function re-lays each 2000000 × 16 argument as a 250000 × 128 array before its region, and re-lays the
  region's 250000 × 32 output array as the 2000000 × 4 result after it. When the region is entered the two re-laid buffers
  hold the arguments' initial contents in row-major order at the new shape; after the last operation the result buffer
  holds, in row-major order at its shape, what the region left in its output array.
-/
import proofs.«110021_j53154515255873_2_alg».proof.Proof.Gen.KernelIdeal.Frame
import Idealize.ShloMosaic.Lib.StableHlo.Run
import Idealize.ShloMosaic.PureOps.Ideal

noncomputable section

namespace Cert.KSide

open Idealize.ShloMosaic Idealize.ShloMosaic.TcCoe Cert.KernelIdeal Cert.KernelIdeal.Gen Idealize.SL.Sem

variable (m : (ℓ : Loc nD τ sig) → Buf (Elt Ideal) ℓ)

/-- When the region is entered, the first re-laid buffer holds the first argument at the packed shape. -/
theorem V_v0 (c : Dev nD) : (V m c main_v0 : S250000x128.Idx → EReal)
    = shapeCast S250000x128 (m ((c : Thread nD τ).loc main_arg0)) Facts₀.shapeCasts_S2000000x16_S250000x128 := by
  show StableHlo.after hostOps0 (fun b => m (c, b)) (Proc.devRef .tc main_v0) = _
  after_results
  rfl

/-- When the region is entered, the second re-laid buffer holds the second argument at the packed shape. -/
theorem V_v1 (c : Dev nD) : (V m c main_v1 : S250000x128.Idx → EReal)
    = shapeCast S250000x128 (m ((c : Thread nD τ).loc main_arg1)) Facts₀.shapeCasts_S2000000x16_S250000x128 := by
  show StableHlo.after hostOps0 (fun b => m (c, b)) (Proc.devRef .tc main_v1) = _
  after_results
  rfl

/-- After the operation that follows the region, the result buffer holds the region's output array at the result's
    shape. -/
theorem tail_v3 (c : Dev nD) : (Pipeline.afterTail₀ cfgs (dats m) 0 (V0 m) [hostOps1] c main_v3 : S2000000x4.Idx → EReal)
    = shapeCast S2000000x4 ((dats m 0 c).arrAt 2 cfg0.N) Facts₀.shapeCasts_S250000x32_S2000000x4 := by
  unfold Pipeline.afterTail₀
  show StableHlo.after hostOps1 _ (Proc.devRef .tc main_v3) = _
  after_results
  exact congrArg (fun a : S250000x32.Idx → EReal => shapeCast S2000000x4 a Facts₀.shapeCasts_S250000x32_S2000000x4)
    (Pipeline.withArrays_arr spec0 launch0.win.arr_inj c (V0 m c) (fun w => (dats m 0 c).arrAt w cfg0.N) 2)

end Cert.KSide

end
-- ==== Proof.Relayout.lean ====
/-
  The packed layout computes the specification.

  Re-laying a 2000000 × 16 array as 250000 × 128 in row-major order puts entry d of original row n at lane
  16 (n mod 8) + d of packed row n / 8, since 16 n + d = 128 (n / 8) + 16 (n mod 8) + d. Re-laying the 250000 × 32 result as
  2000000 × 4 reads entry (n, l) from column 4 (n mod 8) + l of packed row n / 8, since 4 n + l = 32 (n / 8) + 4 (n mod 8) + l.
  That column's group is n mod 8 and its degree is l, so the packed result there is the weighted sum of segment l of the
  row of products of original row n: the specification's entry (n, l).
-/
import proofs.«110021_j53154515255873_2_alg».proof.Proof.Lanes
import Idealize.ShloMosaic.Lib.Pipeline.Value
import Idealize.ShloMosaic.Lib.ValueIdx

noncomputable section

open scoped BigOperators

namespace Cert.KSide

open Idealize.ShloMosaic Idealize.ShloMosaic.ValueIdx Cert.SegSpec

/-- An entry of a packed operand: lane `d` of group `n mod 8` of packed row `n / 8` is entry `d` of original row `n`. -/
theorem packed_apply (x : (⟨2, ![2000000, 16]⟩ : Shape).Idx → EReal)
    (h1 : (⟨2, ![2000000, 16]⟩ : Shape).ShapeCasts ⟨2, ![250000, 128]⟩)
    (n : Fin 2000000) (d : Fin 16) (R : Fin 250000) (g : Fin 8) (hR : R.val = n.val / 8) (hg : g.val = n.val % 8) :
    shapeCast ⟨2, ![250000, 128]⟩ x h1 (ix2 R (lane g d)) = x (ix2 n d) := by
  refine shapeCast_apply x h1 (ix2 R (lane g d)) (ix2 n d) ?_
  rw [Shape.rowMajor_val_two, Shape.rowMajor_val_two]
  show n.val * 16 + d.val = R.val * 128 + (16 * g.val + d.val)
  omega

/-- An entry of the packed result over re-laid operands: at packed row `n / 8` and column `4 (n mod 8) + l` it is the
    specification's entry `(n, l)`. -/
theorem GoutAt_eq (x y : (⟨2, ![2000000, 16]⟩ : Shape).Idx → EReal)
    (h1 : (⟨2, ![2000000, 16]⟩ : Shape).ShapeCasts ⟨2, ![250000, 128]⟩)
    (n : Fin 2000000) (l : Fin 4) (R : Fin 250000) (q : Fin 32)
    (hR : R.val = n.val / 8) (hq : q.val = 4 * (n.val % 8) + l.val) :
    GoutAt (shapeCast ⟨2, ![250000, 128]⟩ x h1) (shapeCast ⟨2, ![250000, 128]⟩ y h1) R q = Gat x y n l := by
  have hl := l.isLt
  have hqlt := q.isLt
  unfold GoutAt Gat
  refine congrArg₂ segval (funext fun d => ?_) (Fin.ext ?_)
  · beta_reduce
    rw [packed_apply x h1 n d R ⟨q.val / 4, by omega⟩ hR (by show q.val / 4 = n.val % 8; omega),
      packed_apply y h1 n d R ⟨q.val / 4, by omega⟩ hR (by show q.val / 4 = n.val % 8; omega)]
  · show q.val % 4 = l.val
    omega

/-- Re-laying the arguments, taking the packed result, and re-laying it back gives the specification. -/
theorem relayout (x y : (⟨2, ![2000000, 16]⟩ : Shape).Idx → EReal)
    (h1 : (⟨2, ![2000000, 16]⟩ : Shape).ShapeCasts ⟨2, ![250000, 128]⟩) (h2 : (⟨2, ![250000, 32]⟩ : Shape).ShapeCasts ⟨2, ![2000000, 4]⟩) :
    shapeCast ⟨2, ![2000000, 4]⟩ (Gout (shapeCast ⟨2, ![250000, 128]⟩ x h1) (shapeCast ⟨2, ![250000, 128]⟩ y h1)) h2 = Cert.SegSpec.G x y := by
  funext i
  obtain ⟨n, l, rfl⟩ : ∃ (n : Fin 2000000) (l : Fin 4), i = ix2 n l := ⟨i 0, i 1, eq_ix2 i⟩
  have hn := n.isLt
  have hl := l.isLt
  rw [G_apply]
  refine (shapeCast_apply _ h2 (ix2 n l)
    (ix2 (⟨n.val / 8, by omega⟩ : Fin 250000) (⟨4 * (n.val % 8) + l.val, by omega⟩ : Fin 32)) ?_).trans ?_
  · rw [Shape.rowMajor_val_two, Shape.rowMajor_val_two]
    show n.val / 8 * 32 + (4 * (n.val % 8) + l.val) = n.val * 4 + l.val
    omega
  · rw [Gout_apply]
    exact GoutAt_eq x y h1 n l _ _ rfl rfl

end Cert.KSide

end
-- ==== Proof.KRun.lean ====
/-
  The kernel's run, read: its result array is the specification of its two arguments.

  The program re-lays each argument as a 250000 × 128 array, runs the kernel over fifty blocks of 5000 rows, and
  re-lays the 250000 × 32 result as 2000000 × 4. After the run the packed result is the packed specification of the
  packed arguments (the blocks tile it), and re-laying that is the specification of the arguments themselves: packed
  row R holds original rows 8 R … 8 R + 7, group g of it original row 8 R + g. No entry needs to be finite for this.
-/
import proofs.«110021_j53154515255873_2_alg».proof.Proof.Gen.KernelIdeal.Frame
import proofs.«110021_j53154515255873_2_alg».proof.Proof.KBlocks
import proofs.«110021_j53154515255873_2_alg».proof.Proof.KHost
import proofs.«110021_j53154515255873_2_alg».proof.Proof.Relayout

noncomputable section

namespace Cert.KSide

open Idealize.ShloMosaic Idealize.ShloMosaic.TcCoe Cert.KernelIdeal Cert.KernelIdeal.Gen Cert.SegSpec
open Idealize.SL.Sem
open Cert.KernelIdeal.Facts₀

variable (m : (ℓ : Loc nD τ sig) → Buf (Elt Ideal) ℓ) (ρ : Dev nD → PrngReg)

/-- What the program's last line leaves in the result array. -/
theorem result_eq (c : Dev nD) :
    (Pipeline.afterTail₀ cfgs (dats m) 0 (V0 m) [hostOps1] c main_v3 : S2000000x4.Idx → EReal)
      = G (m ((c : Thread nD τ).loc main_arg0)) (m ((c : Thread nD τ).loc main_arg1)) := by
  rw [tail_v3, final, V_v0, V_v1]
  exact relayout _ _ _ _

/-- Every weakly fair execution of the kernel's program terminates with the result array at the specification of the
    arguments, and the arguments unchanged. -/
theorem run : θ_run (defs (F := Ideal)) (onTc (τ := τ) (main (F := Ideal))) ⟨m, fun _ => 0, ρ⟩ (fun r => ∀ c : Dev nD,
      r.2.mem ((c.tc : Thread nD τ).loc main_v3) = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_v3 (Pipeline.mem_restRefs_of main_v3 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KSide

end
-- ==== Proof.RefTerm.lean ====
/-
  The reference's result as one term of its two argument arrays.

  The reference multiplies the two arrays entry by entry and contracts each row of sixteen products with a constant
  sixteen-by-four table. The term below is that composition: the matrix product of the entrywise product with the
  table, the table's entry at an index being the value its literal word denotes.
-/
import proofs.«110021_j53154515255873_2_alg».proof.ReferenceIdeal
import proofs.«110021_j53154515255873_2_alg».proof.Proof.Gen.ReferenceIdeal
import Idealize.ShloMosaic.PureOps.Ideal

noncomputable section

namespace Cert.RefSide

open Cert.ReferenceIdeal Cert.ReferenceIdeal.Gen Idealize.ShloMosaic

/-- The reference's result: the product of the entrywise product of the arguments with the constant table. -/
def refOut (x y : FVec Ideal S2000000x16 .f32) : FVec Ideal S2000000x4 .f32 :=
  Host.dotGeneral (F := Ideal) dot_S2000000x16_S16x4_S2000000x4_1_0_0_1_n_n none (mulf x y)
    (fun i => FloatOps.ofBits .f32 (lit0 (S16x4.rowMajor i)))

end Cert.RefSide

end
-- ==== Proof.RefRun.lean ====
/-
  The reference's run, read back.

  The reference's entry function is a list of three host operations: a constant table, an entrywise product, and a
  matrix product. Every weakly fair execution of that list terminates with the result buffer at the operations'
  composed term of the arguments' initial contents, and with the arguments unchanged.
-/
import proofs.«110021_j53154515255873_2_alg».proof.Proof.RefTerm
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- The entry function's three operations, in order. -/
abbrev ops : List (HloOp τ sig (Elt F)) :=
  [ nullary main_cst (fun i => FloatOps.ofBits .f32 (lit0 (S16x4.rowMajor i))),
    binary main_arg0 main_arg1 main_v0 (mulf : (⟨S2000000x16, .f32⟩ : BufTy).Contents (Elt F) → (⟨S2000000x16, .f32⟩ : BufTy).Contents (Elt F) → (⟨S2000000x16, .f32⟩ : BufTy).Contents (Elt F)),
    binary main_v0 main_cst main_v1 ((fun l r => Host.dotGeneral dot_S2000000x16_S16x4_S2000000x4_1_0_0_1_n_n none l r) : (⟨S2000000x16, .f32⟩ : BufTy).Contents (Elt F) → (⟨S16x4, .f32⟩ : BufTy).Contents (Elt F) → (⟨S2000000x4, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., binary_bufs_sub .., binary_bufs_sub ..⟩

/-- On every device, from any memory with zero counters: every weakly fair execution of the entry function
    terminates with the result at the composed term of the arguments, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v1) = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_v1).trans (by after_results; rfl),
      (h c main_arg0).trans (by after_results),
      (h c main_arg1).trans (by after_results)⟩)
    (run_seq scopedRefs_eq scopedSems_eq defs main (fun _ => ops) main_eq (fun _ => ops_sub) m ρ)

end Cert.RefSide

end
-- ==== Proof.LibDot.lean ====
/-
  A matrix product read at an index, on the extended reals.

  For a rows × contraction by contraction × columns product — the dimension numbers that contract the left operand's
  second axis with the right operand's first, with no batch axis — the entry at (i, j) of the host's `dot_general`,
  and of a `tpu.matmul` accumulated into the zero splat, is the plain sum over the contraction coordinate k of
  l (i, k) · r (k, j). The sum over the product's own contraction index is re-indexed through the bijection between a
  one-axis contraction index and its coordinate; the operand indices are computed from the dimension numbers.
  Nothing here needs finiteness: only that the sum is re-indexed.
-/
import Idealize.ShloMosaic.Lib.ValueIdx
import Idealize.ShloMosaic.PureOps.Ideal.Laws

noncomputable section

namespace Cert.LibDot

open Idealize.ShloMosaic Idealize.ShloMosaic.ValueIdx

variable {M K N : Nat}

/-- The contraction of row `y 0` of `l` with column `y 1` of `r`: the sum over the product's contraction index is
    the sum over the one contracted coordinate. -/
theorem sum_plain (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (y : (⟨2, ![M, N]⟩ : Shape).Idx) :
    ∑ q : d.contr.Idx, l (d.lhsIdx y q) * r (d.rhsIdx y q) = ∑ k : Fin K, l (ix2 (y 0) k) * r (ix2 k (y 1)) := by
  obtain ⟨lc, rc, ln, rn, lb, rb, wf⟩ := d
  dsimp only at hlc hrc hln hrn hlb hrb
  subst hlc hrc hln hrn hlb hrb
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 (y 0) k := funext fun a => Fin.ext (by
    match a with
    | ⟨0, _⟩ =>
      unfold DotDims.lhsIdx
      rw [dif_neg (by simp), dif_pos (by simp)]
      rfl
    | ⟨1, _⟩ => exact (DotDims.lhsIdx_val_of_single _ rfl y _).trans hk)
  have er : DotDims.rhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 k (y 1) := funext fun a => Fin.ext (by
    match a with
    | ⟨0, _⟩ => exact (DotDims.rhsIdx_val_of_single _ rfl y _).trans hk
    | ⟨1, _⟩ =>
      unfold DotDims.rhsIdx
      rw [dif_neg (by simp), dif_pos (by simp)]
      rfl)
  rw [el, er]
  rfl

variable {φ₁ φ₂ : FTy}

/-- The host's `dot_general` of those dimension numbers, at an index: the sum over the contracted coordinate. -/
theorem dotGeneral_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (l : FVec Ideal ⟨2, ![M, K]⟩ φ₁) (r : FVec Ideal ⟨2, ![K, N]⟩ φ₂) (y : (⟨2, ![M, N]⟩ : Shape).Idx) :
    FloatOps.dotGeneral d prec sched l r y = ∑ k : Fin K, l (ix2 (y 0) k) * r (ix2 k (y 1)) := by
  rw [Ideal.dotGeneral_apply]
  exact sum_plain d hlc hrc hln hrn hlb hrb l r y

/-- A `tpu.matmul` of those dimension numbers into the zero accumulator, at an index: the same sum. -/
theorem matmul_zero_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![M, K]⟩ φ₁) (r : FVec Ideal ⟨2, ![K, N]⟩ φ₂) (y : (⟨2, ![M, N]⟩ : Shape).Idx) :
    FloatOps.matmul d prec l r (constant ⟨2, ![M, N]⟩ .f32 0x00000000#32) y
      = ∑ k : Fin K, l (ix2 (y 0) k) * r (ix2 k (y 1)) := by
  rw [Ideal.matmul_constant_zero_apply]
  exact sum_plain d hlc hrc hln hrn hlb hrb l r y

end Cert.LibDot

end
-- ==== Proof.LibRealOps.lean ====
/-
  Real numbers inside the extended reals: the facts that carry "every value is a real number" through a program.

  A program read over the extended reals is exact, but its algebra is the reals' only where no infinity occurs:
  distributivity and cancellation fail at an infinite factor. A precondition that every input is finite therefore has
  to be carried through the program: each intermediate is shown to be the coercion of a real, and the law wanted is then
  the reals'. This file has the two element tests a printed precondition is made of (|x| < +infinity says x is a real;
  v >= 0 says what it says), and the closure of the reals under what such programs do to them: a finite sum (this
  Mathlib has no coercion lemma for it), a sum of products (a matrix product's entry) onto a real accumulator, a quotient
  by a non-zero real, a maximum, and a square root of a non-negative real.
-/
import Idealize.ShloMosaic.PureOps.Ideal

noncomputable section

namespace Idealize.ShloMosaic.RealOps

open Idealize.ShloMosaic

/-! ## The element tests of a precondition -/

/-- The f32 pattern of +infinity denotes the top element. -/
theorem ofBits_pos_inf : Ideal.ofBits .f32 0x7F800000#32 = (⊤ : EReal) := by
  simp [Ideal.ofBits, Ideal.ieee]

/-- An extended real is below the top in absolute value exactly when it is a real number. -/
theorem abs_lt_top_iff (x : EReal) : max x (-x) < ⊤ ↔ ∃ r : ℝ, x = (r : EReal) := by
  induction x using EReal.rec with
  | bot => simp
  | coe r =>
    refine ⟨fun _ => ⟨r, rfl⟩, fun _ => ?_⟩
    rw [← EReal.coe_neg, max_lt_iff]
    exact ⟨EReal.coe_lt_top r, EReal.coe_lt_top (-r)⟩
  | top => simp

/-- The finiteness test as a program prints it: the comparison "|x| < +infinity" answers 1 exactly when x is a real. -/
theorem cmp_abs_lt_inf (x : EReal) :
    Ideal.cmp .olt (max x (-x)) (Ideal.ofBits .f32 0x7F800000#32) = 1#1 ↔ ∃ r : ℝ, x = (r : EReal) := by
  rw [ofBits_pos_inf, ← abs_lt_top_iff]
  unfold Ideal.cmp
  by_cases h : max x (-x) < ⊤ <;> simp [h]

/-- The sign test as a program prints it: "v >= 0" answers 1 exactly when 0 <= v. -/
theorem cmp_ge_zero (v : EReal) : Ideal.cmp .oge v 0 = 1#1 ↔ 0 ≤ v := by
  unfold Ideal.cmp
  by_cases h : (0 : EReal) ≤ v <;> simp [h]

/-! ## Closure of the reals -/

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of reals, taken on the extended reals, is the real sum of products. -/
theorem sum_mul_coe {ι : Type*} (s : Finset ι) (a b : ι → ℝ) :
    ∑ k ∈ s, (a k : EReal) * (b k : EReal) = ((∑ k ∈ s, a k * b k : ℝ) : EReal) := by
  rw [coe_sum]
  exact Finset.sum_congr rfl fun k _ => (EReal.coe_mul _ _).symm

/-- The same onto a real accumulator: an entry of a matrix product of real matrices is a real. -/
theorem acc_add_sum_mul_coe {ι : Type*} (s : Finset ι) (acc : ℝ) (a b : ι → ℝ) :
    (acc : EReal) + ∑ k ∈ s, (a k : EReal) * (b k : EReal) = ((acc + ∑ k ∈ s, a k * b k : ℝ) : EReal) := by
  rw [sum_mul_coe, EReal.coe_add]

/-- A quotient of reals by a non-zero real, as a program takes it, is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

/-- A maximum of reals is the real maximum. -/
theorem max_coe (a b : ℝ) : max (a : EReal) (b : EReal) = ((max a b : ℝ) : EReal) :=
  (EReal.coe_strictMono.monotone.map_max).symm

/-- The square root of a non-negative real, as a program takes it, is the real square root. -/
theorem sqrt_coe_of_nonneg {r : ℝ} (hr : 0 ≤ r) : Ideal.sqrt (r : EReal) = ((Real.sqrt r : ℝ) : EReal) := by
  show (if r < 0 then (⊥ : EReal) else (Real.sqrt r : EReal)) = _
  rw [if_neg (not_lt.2 hr)]

end Idealize.ShloMosaic.RealOps

end
-- ==== Proof.RefValue.lean ====
/-
  The reference's term is the specification on real inputs.

  Entry (n, l) of the reference's result is the sum over the sixteen columns d of x(n, d) · y(n, d) · M(d, l), where
  M(d, l) is the weight of degree l when column d lies in segment l and zero otherwise. When every entry of x and y is a
  real number the terms with a zero factor vanish and the weight factors out of the rest, which leaves the sum of
  segment l of the row of products times the weight: the specification. Both steps are laws of the reals that fail on the
  extended reals at an infinite factor, so the sums are first written as coercions of real sums.
-/
import proofs.«110021_j53154515255873_2_alg».proof.Proof.RefTerm
import proofs.«110021_j53154515255873_2_alg».proof.Proof.Spec
import proofs.«110021_j53154515255873_2_alg».proof.Proof.LibDot
import proofs.«110021_j53154515255873_2_alg».proof.Proof.LibRealOps

noncomputable section

open scoped BigOperators

namespace Cert.RefSide

open Cert.ReferenceIdeal Cert.ReferenceIdeal.Gen Idealize.ShloMosaic Idealize.ShloMosaic.ValueIdx Cert.SegSpec

/-! ## The table -/

/-- The table's word at row `k`, column `l`: the literal at row-major position 4k + l. -/
def word (k : Fin 16) (l : Fin 4) : BitVec 32 := lit0 ⟨4 * k.val + l.val, by omega⟩

/-- The degree whose segment column `k` lies in: segments of widths 1, 3, 5, 7 starting at 0, 1, 4, 9. -/
def segOf (k : Fin 16) : Fin 4 :=
  if k.val < 1 then 0 else if k.val < 4 then 1 else if k.val < 9 then 2 else 3

/-- The weight word of degree `l`. -/
def wordOf : Fin 4 → BitVec 32
  | ⟨0, _⟩ => 0x3F800000#32
  | ⟨1, _⟩ => 0x3F13CD3A#32
  | ⟨2, _⟩ => 0x3EE4F92E#32
  | ⟨3, _⟩ => 0x3EC1848F#32

/-- The row-major position of `(k, l)` in the sixteen-by-four table is 4k + l. -/
theorem rowMajor_ix2 (k : Fin 16) (l : Fin 4) : S16x4.rowMajor (ix2 k l) = (⟨4 * k.val + l.val, by omega⟩ : Fin 64) := by
  apply Fin.ext
  rw [Shape.rowMajor_val_two]
  show k.val * 4 + l.val = 4 * k.val + l.val
  omega

/-- The table's word at row `k`, column `l` is the weight word of degree `l` when `k` lies in segment `l`, and the zero word
    otherwise. -/
theorem word_eq : ∀ (k : Fin 16) (l : Fin 4), word k l = if segOf k = l then wordOf l else 0x00000000#32 := by decide

/-- The specification's weight is the value of the weight word. -/
theorem wt_eq (l : Fin 4) : wt l = Ideal.ofBits .f32 (wordOf l) :=
  match l with
  | ⟨0, _⟩ => rfl
  | ⟨1, _⟩ => rfl
  | ⟨2, _⟩ => rfl
  | ⟨3, _⟩ => rfl

/-- Each weight is a real number. -/
theorem wt_real (l : Fin 4) : ∃ w : ℝ, wt l = (w : EReal) :=
  match l with
  | ⟨0, _⟩ => by simp [wt, Ideal.ofBits, Ideal.ieee, -EReal.coe_mul]
  | ⟨1, _⟩ => by simp [wt, Ideal.ofBits, Ideal.ieee, -EReal.coe_mul]
  | ⟨2, _⟩ => by simp [wt, Ideal.ofBits, Ideal.ieee, -EReal.coe_mul]
  | ⟨3, _⟩ => by simp [wt, Ideal.ofBits, Ideal.ieee, -EReal.coe_mul]

/-- The table's entry at `(k, l)`, as a value: the weight of degree `l` on its segment, zero elsewhere. -/
theorem table_entry (k : Fin 16) (l : Fin 4) :
    FloatOps.ofBits (F := Ideal) .f32 (lit0 (S16x4.rowMajor (ix2 k l))) = if segOf k = l then wt l else 0 := by
  rw [rowMajor_ix2]
  show Ideal.ofBits .f32 (word k l) = _
  rw [word_eq]
  split_ifs
  · exact (wt_eq l).symm
  · exact Ideal.ofBits_zero_f32

/-! ## A sum over sixteen columns, written out -/

theorem sum16 {M : Type*} [AddCommMonoid M] (f : Fin 16 → M) :
    ∑ k, f k = f 0 + (f 1 + (f 2 + (f 3 + (f 4 + (f 5 + (f 6 + (f 7 + (f 8 + (f 9 + (f 10 + (f 11 + (f 12 + (f 13 + (f 14 + (f 15))))))))))))))) := by
  simp only [Fin.sum_univ_succ, Fin.sum_univ_zero, add_zero]
  rfl

/-! ## A row of real products against a column of the table -/

/-- With real factors, the sum against column `l` of the table is the coercion of a real sum. -/
theorem row_coe (z : Fin 16 → ℝ) (l : Fin 4) (w : ℝ) (hw : wt l = (w : EReal)) :
    ∑ k : Fin 16, (z k : EReal) * (if segOf k = l then wt l else 0)
      = ((∑ k : Fin 16, z k * (if segOf k = l then w else 0) : ℝ) : EReal) := by
  have hterm : ∀ k : Fin 16, (z k : EReal) * (if segOf k = l then wt l else 0)
      = ((z k * (if segOf k = l then w else 0) : ℝ) : EReal) := by
    intro k
    split_ifs
    · rw [hw, EReal.coe_mul]
    · rw [mul_zero, mul_zero, EReal.coe_zero]
  rw [Finset.sum_congr rfl fun k _ => hterm k, ← RealOps.coe_sum]

/-- Over the reals: only the columns of segment 0 contribute, and the weight factors out. -/
theorem real_row_0 (z : Fin 16 → ℝ) (w : ℝ) :
    ∑ k : Fin 16, z k * (if segOf k = (0 : Fin 4) then w else 0) = (z 0) * w := by
  rw [sum16]
  show z 0 * (if segOf (0 : Fin 16) = (0 : Fin 4) then w else 0) + (z 1 * (if segOf (1 : Fin 16) = (0 : Fin 4) then w else 0) + (z 2 * (if segOf (2 : Fin 16) = (0 : Fin 4) then w else 0) + (z 3 * (if segOf (3 : Fin 16) = (0 : Fin 4) then w else 0) + (z 4 * (if segOf (4 : Fin 16) = (0 : Fin 4) then w else 0) + (z 5 * (if segOf (5 : Fin 16) = (0 : Fin 4) then w else 0) + (z 6 * (if segOf (6 : Fin 16) = (0 : Fin 4) then w else 0) + (z 7 * (if segOf (7 : Fin 16) = (0 : Fin 4) then w else 0) + (z 8 * (if segOf (8 : Fin 16) = (0 : Fin 4) then w else 0) + (z 9 * (if segOf (9 : Fin 16) = (0 : Fin 4) then w else 0) + (z 10 * (if segOf (10 : Fin 16) = (0 : Fin 4) then w else 0) + (z 11 * (if segOf (11 : Fin 16) = (0 : Fin 4) then w else 0) + (z 12 * (if segOf (12 : Fin 16) = (0 : Fin 4) then w else 0) + (z 13 * (if segOf (13 : Fin 16) = (0 : Fin 4) then w else 0) + (z 14 * (if segOf (14 : Fin 16) = (0 : Fin 4) then w else 0) + (z 15 * (if segOf (15 : Fin 16) = (0 : Fin 4) then w else 0)))))))))))))))) = _
  rw [if_pos (by decide : segOf (0 : Fin 16) = (0 : Fin 4)),
    if_neg (by decide : ¬ segOf (1 : Fin 16) = (0 : Fin 4)),
    if_neg (by decide : ¬ segOf (2 : Fin 16) = (0 : Fin 4)),
    if_neg (by decide : ¬ segOf (3 : Fin 16) = (0 : Fin 4)),
    if_neg (by decide : ¬ segOf (4 : Fin 16) = (0 : Fin 4)),
    if_neg (by decide : ¬ segOf (5 : Fin 16) = (0 : Fin 4)),
    if_neg (by decide : ¬ segOf (6 : Fin 16) = (0 : Fin 4)),
    if_neg (by decide : ¬ segOf (7 : Fin 16) = (0 : Fin 4)),
    if_neg (by decide : ¬ segOf (8 : Fin 16) = (0 : Fin 4)),
    if_neg (by decide : ¬ segOf (9 : Fin 16) = (0 : Fin 4)),
    if_neg (by decide : ¬ segOf (10 : Fin 16) = (0 : Fin 4)),
    if_neg (by decide : ¬ segOf (11 : Fin 16) = (0 : Fin 4)),
    if_neg (by decide : ¬ segOf (12 : Fin 16) = (0 : Fin 4)),
    if_neg (by decide : ¬ segOf (13 : Fin 16) = (0 : Fin 4)),
    if_neg (by decide : ¬ segOf (14 : Fin 16) = (0 : Fin 4)),
    if_neg (by decide : ¬ segOf (15 : Fin 16) = (0 : Fin 4))]
  ring

/-- The specification's value of segment 0 of a real row, as the coercion of a real. -/
theorem segval_real_0 (z : Fin 16 → ℝ) (w : ℝ) (hw : wt 0 = (w : EReal)) :
    segval (fun d => (z d : EReal)) 0 = (((z 0) * w : ℝ) : EReal) := by
  show ((z 0 : ℝ) : EReal) * wt 0 = _
  rw [hw, ← EReal.coe_mul]

/-- Over the reals: only the columns of segment 1 contribute, and the weight factors out. -/
theorem real_row_1 (z : Fin 16 → ℝ) (w : ℝ) :
    ∑ k : Fin 16, z k * (if segOf k = (1 : Fin 4) then w else 0) = (z 1 + z 2 + z 3) * w := by
  rw [sum16]
  show z 0 * (if segOf (0 : Fin 16) = (1 : Fin 4) then w else 0) + (z 1 * (if segOf (1 : Fin 16) = (1 : Fin 4) then w else 0) + (z 2 * (if segOf (2 : Fin 16) = (1 : Fin 4) then w else 0) + (z 3 * (if segOf (3 : Fin 16) = (1 : Fin 4) then w else 0) + (z 4 * (if segOf (4 : Fin 16) = (1 : Fin 4) then w else 0) + (z 5 * (if segOf (5 : Fin 16) = (1 : Fin 4) then w else 0) + (z 6 * (if segOf (6 : Fin 16) = (1 : Fin 4) then w else 0) + (z 7 * (if segOf (7 : Fin 16) = (1 : Fin 4) then w else 0) + (z 8 * (if segOf (8 : Fin 16) = (1 : Fin 4) then w else 0) + (z 9 * (if segOf (9 : Fin 16) = (1 : Fin 4) then w else 0) + (z 10 * (if segOf (10 : Fin 16) = (1 : Fin 4) then w else 0) + (z 11 * (if segOf (11 : Fin 16) = (1 : Fin 4) then w else 0) + (z 12 * (if segOf (12 : Fin 16) = (1 : Fin 4) then w else 0) + (z 13 * (if segOf (13 : Fin 16) = (1 : Fin 4) then w else 0) + (z 14 * (if segOf (14 : Fin 16) = (1 : Fin 4) then w else 0) + (z 15 * (if segOf (15 : Fin 16) = (1 : Fin 4) then w else 0)))))))))))))))) = _
  rw [if_neg (by decide : ¬ segOf (0 : Fin 16) = (1 : Fin 4)),
    if_pos (by decide : segOf (1 : Fin 16) = (1 : Fin 4)),
    if_pos (by decide : segOf (2 : Fin 16) = (1 : Fin 4)),
    if_pos (by decide : segOf (3 : Fin 16) = (1 : Fin 4)),
    if_neg (by decide : ¬ segOf (4 : Fin 16) = (1 : Fin 4)),
    if_neg (by decide : ¬ segOf (5 : Fin 16) = (1 : Fin 4)),
    if_neg (by decide : ¬ segOf (6 : Fin 16) = (1 : Fin 4)),
    if_neg (by decide : ¬ segOf (7 : Fin 16) = (1 : Fin 4)),
    if_neg (by decide : ¬ segOf (8 : Fin 16) = (1 : Fin 4)),
    if_neg (by decide : ¬ segOf (9 : Fin 16) = (1 : Fin 4)),
    if_neg (by decide : ¬ segOf (10 : Fin 16) = (1 : Fin 4)),
    if_neg (by decide : ¬ segOf (11 : Fin 16) = (1 : Fin 4)),
    if_neg (by decide : ¬ segOf (12 : Fin 16) = (1 : Fin 4)),
    if_neg (by decide : ¬ segOf (13 : Fin 16) = (1 : Fin 4)),
    if_neg (by decide : ¬ segOf (14 : Fin 16) = (1 : Fin 4)),
    if_neg (by decide : ¬ segOf (15 : Fin 16) = (1 : Fin 4))]
  ring

/-- The specification's value of segment 1 of a real row, as the coercion of a real. -/
theorem segval_real_1 (z : Fin 16 → ℝ) (w : ℝ) (hw : wt 1 = (w : EReal)) :
    segval (fun d => (z d : EReal)) 1 = (((z 1 + z 2 + z 3) * w : ℝ) : EReal) := by
  show (∑ k : Fin 3, ((z ⟨1 + k.val, by omega⟩ : ℝ) : EReal)) * wt 1 = _
  rw [hw, ← RealOps.coe_sum, ← EReal.coe_mul, Fin.sum_univ_three]
  rfl

/-- Over the reals: only the columns of segment 2 contribute, and the weight factors out. -/
theorem real_row_2 (z : Fin 16 → ℝ) (w : ℝ) :
    ∑ k : Fin 16, z k * (if segOf k = (2 : Fin 4) then w else 0) = (z 4 + z 5 + z 6 + z 7 + z 8) * w := by
  rw [sum16]
  show z 0 * (if segOf (0 : Fin 16) = (2 : Fin 4) then w else 0) + (z 1 * (if segOf (1 : Fin 16) = (2 : Fin 4) then w else 0) + (z 2 * (if segOf (2 : Fin 16) = (2 : Fin 4) then w else 0) + (z 3 * (if segOf (3 : Fin 16) = (2 : Fin 4) then w else 0) + (z 4 * (if segOf (4 : Fin 16) = (2 : Fin 4) then w else 0) + (z 5 * (if segOf (5 : Fin 16) = (2 : Fin 4) then w else 0) + (z 6 * (if segOf (6 : Fin 16) = (2 : Fin 4) then w else 0) + (z 7 * (if segOf (7 : Fin 16) = (2 : Fin 4) then w else 0) + (z 8 * (if segOf (8 : Fin 16) = (2 : Fin 4) then w else 0) + (z 9 * (if segOf (9 : Fin 16) = (2 : Fin 4) then w else 0) + (z 10 * (if segOf (10 : Fin 16) = (2 : Fin 4) then w else 0) + (z 11 * (if segOf (11 : Fin 16) = (2 : Fin 4) then w else 0) + (z 12 * (if segOf (12 : Fin 16) = (2 : Fin 4) then w else 0) + (z 13 * (if segOf (13 : Fin 16) = (2 : Fin 4) then w else 0) + (z 14 * (if segOf (14 : Fin 16) = (2 : Fin 4) then w else 0) + (z 15 * (if segOf (15 : Fin 16) = (2 : Fin 4) then w else 0)))))))))))))))) = _
  rw [if_neg (by decide : ¬ segOf (0 : Fin 16) = (2 : Fin 4)),
    if_neg (by decide : ¬ segOf (1 : Fin 16) = (2 : Fin 4)),
    if_neg (by decide : ¬ segOf (2 : Fin 16) = (2 : Fin 4)),
    if_neg (by decide : ¬ segOf (3 : Fin 16) = (2 : Fin 4)),
    if_pos (by decide : segOf (4 : Fin 16) = (2 : Fin 4)),
    if_pos (by decide : segOf (5 : Fin 16) = (2 : Fin 4)),
    if_pos (by decide : segOf (6 : Fin 16) = (2 : Fin 4)),
    if_pos (by decide : segOf (7 : Fin 16) = (2 : Fin 4)),
    if_pos (by decide : segOf (8 : Fin 16) = (2 : Fin 4)),
    if_neg (by decide : ¬ segOf (9 : Fin 16) = (2 : Fin 4)),
    if_neg (by decide : ¬ segOf (10 : Fin 16) = (2 : Fin 4)),
    if_neg (by decide : ¬ segOf (11 : Fin 16) = (2 : Fin 4)),
    if_neg (by decide : ¬ segOf (12 : Fin 16) = (2 : Fin 4)),
    if_neg (by decide : ¬ segOf (13 : Fin 16) = (2 : Fin 4)),
    if_neg (by decide : ¬ segOf (14 : Fin 16) = (2 : Fin 4)),
    if_neg (by decide : ¬ segOf (15 : Fin 16) = (2 : Fin 4))]
  ring

/-- The specification's value of segment 2 of a real row, as the coercion of a real. -/
theorem segval_real_2 (z : Fin 16 → ℝ) (w : ℝ) (hw : wt 2 = (w : EReal)) :
    segval (fun d => (z d : EReal)) 2 = (((z 4 + z 5 + z 6 + z 7 + z 8) * w : ℝ) : EReal) := by
  show (∑ k : Fin 5, ((z ⟨4 + k.val, by omega⟩ : ℝ) : EReal)) * wt 2 = _
  rw [hw, ← RealOps.coe_sum, ← EReal.coe_mul, Fin.sum_univ_five]
  rfl

/-- Over the reals: only the columns of segment 3 contribute, and the weight factors out. -/
theorem real_row_3 (z : Fin 16 → ℝ) (w : ℝ) :
    ∑ k : Fin 16, z k * (if segOf k = (3 : Fin 4) then w else 0) = (z 9 + z 10 + z 11 + z 12 + z 13 + z 14 + z 15) * w := by
  rw [sum16]
  show z 0 * (if segOf (0 : Fin 16) = (3 : Fin 4) then w else 0) + (z 1 * (if segOf (1 : Fin 16) = (3 : Fin 4) then w else 0) + (z 2 * (if segOf (2 : Fin 16) = (3 : Fin 4) then w else 0) + (z 3 * (if segOf (3 : Fin 16) = (3 : Fin 4) then w else 0) + (z 4 * (if segOf (4 : Fin 16) = (3 : Fin 4) then w else 0) + (z 5 * (if segOf (5 : Fin 16) = (3 : Fin 4) then w else 0) + (z 6 * (if segOf (6 : Fin 16) = (3 : Fin 4) then w else 0) + (z 7 * (if segOf (7 : Fin 16) = (3 : Fin 4) then w else 0) + (z 8 * (if segOf (8 : Fin 16) = (3 : Fin 4) then w else 0) + (z 9 * (if segOf (9 : Fin 16) = (3 : Fin 4) then w else 0) + (z 10 * (if segOf (10 : Fin 16) = (3 : Fin 4) then w else 0) + (z 11 * (if segOf (11 : Fin 16) = (3 : Fin 4) then w else 0) + (z 12 * (if segOf (12 : Fin 16) = (3 : Fin 4) then w else 0) + (z 13 * (if segOf (13 : Fin 16) = (3 : Fin 4) then w else 0) + (z 14 * (if segOf (14 : Fin 16) = (3 : Fin 4) then w else 0) + (z 15 * (if segOf (15 : Fin 16) = (3 : Fin 4) then w else 0)))))))))))))))) = _
  rw [if_neg (by decide : ¬ segOf (0 : Fin 16) = (3 : Fin 4)),
    if_neg (by decide : ¬ segOf (1 : Fin 16) = (3 : Fin 4)),
    if_neg (by decide : ¬ segOf (2 : Fin 16) = (3 : Fin 4)),
    if_neg (by decide : ¬ segOf (3 : Fin 16) = (3 : Fin 4)),
    if_neg (by decide : ¬ segOf (4 : Fin 16) = (3 : Fin 4)),
    if_neg (by decide : ¬ segOf (5 : Fin 16) = (3 : Fin 4)),
    if_neg (by decide : ¬ segOf (6 : Fin 16) = (3 : Fin 4)),
    if_neg (by decide : ¬ segOf (7 : Fin 16) = (3 : Fin 4)),
    if_neg (by decide : ¬ segOf (8 : Fin 16) = (3 : Fin 4)),
    if_pos (by decide : segOf (9 : Fin 16) = (3 : Fin 4)),
    if_pos (by decide : segOf (10 : Fin 16) = (3 : Fin 4)),
    if_pos (by decide : segOf (11 : Fin 16) = (3 : Fin 4)),
    if_pos (by decide : segOf (12 : Fin 16) = (3 : Fin 4)),
    if_pos (by decide : segOf (13 : Fin 16) = (3 : Fin 4)),
    if_pos (by decide : segOf (14 : Fin 16) = (3 : Fin 4)),
    if_pos (by decide : segOf (15 : Fin 16) = (3 : Fin 4))]
  ring

/-- The specification's value of segment 3 of a real row, as the coercion of a real. -/
theorem segval_real_3 (z : Fin 16 → ℝ) (w : ℝ) (hw : wt 3 = (w : EReal)) :
    segval (fun d => (z d : EReal)) 3 = (((z 9 + z 10 + z 11 + z 12 + z 13 + z 14 + z 15) * w : ℝ) : EReal) := by
  show (∑ k : Fin 7, ((z ⟨9 + k.val, by omega⟩ : ℝ) : EReal)) * wt 3 = _
  rw [hw, ← RealOps.coe_sum, ← EReal.coe_mul, Fin.sum_univ_seven]
  rfl

/-- The sum over the sixteen columns of a real row against column `l` of the table is the specification's value of
    segment `l` of the row. -/
theorem row_eq (z : Fin 16 → ℝ) (l : Fin 4) :
    ∑ k : Fin 16, (z k : EReal) * (if segOf k = l then wt l else 0) = segval (fun d => (z d : EReal)) l := by
  obtain ⟨w, hw⟩ := wt_real l
  rw [row_coe z l w hw]
  match l, hw with
  | ⟨0, _⟩, hw => exact (congrArg (fun r : ℝ => (r : EReal)) (real_row_0 z w)).trans (segval_real_0 z w hw).symm
  | ⟨1, _⟩, hw => exact (congrArg (fun r : ℝ => (r : EReal)) (real_row_1 z w)).trans (segval_real_1 z w hw).symm
  | ⟨2, _⟩, hw => exact (congrArg (fun r : ℝ => (r : EReal)) (real_row_2 z w)).trans (segval_real_2 z w hw).symm
  | ⟨3, _⟩, hw => exact (congrArg (fun r : ℝ => (r : EReal)) (real_row_3 z w)).trans (segval_real_3 z w hw).symm

/-! ## The reference's term -/

/-- On arrays whose entries are all real numbers, the reference's result is the specification. -/
theorem refOut_eq_G (x y : FVec Ideal S2000000x16 .f32) (hx : ∀ i, ∃ r : ℝ, x i = (r : EReal)) (hy : ∀ i, ∃ r : ℝ, y i = (r : EReal)) :
    refOut x y = Cert.SegSpec.G x y := by
  funext i
  obtain ⟨n, l, rfl⟩ : ∃ (n : Fin 2000000) (l : Fin 4), i = ix2 n l := ⟨i 0, i 1, eq_ix2 i⟩
  rw [G_apply]
  have hd : refOut x y (ix2 n l)
      = ∑ k : Fin 16, (mulf x y) (ix2 n k) * FloatOps.ofBits (F := Ideal) .f32 (lit0 (S16x4.rowMajor (ix2 k l))) :=
    Cert.LibDot.dotGeneral_plain_apply dot_S2000000x16_S16x4_S2000000x4_1_0_0_1_n_n rfl rfl rfl rfl rfl rfl none .single
      (mulf x y) (fun i => FloatOps.ofBits .f32 (lit0 (S16x4.rowMajor i))) (ix2 n l)
  rw [hd]
  choose a ha using fun k : Fin 16 => hx (ix2 n k)
  choose b hb using fun k : Fin 16 => hy (ix2 n k)
  have hrow : (fun d : Fin 16 => x (ix2 n d) * y (ix2 n d)) = fun d => ((a d * b d : ℝ) : EReal) :=
    funext fun d => by rw [ha, hb, EReal.coe_mul]
  have hL : ∀ k : Fin 16, (mulf x y) (ix2 n k) * FloatOps.ofBits (F := Ideal) .f32 (lit0 (S16x4.rowMajor (ix2 k l)))
      = ((a k * b k : ℝ) : EReal) * (if segOf k = l then wt l else 0) := fun k => by
    rw [mulf_apply, ha, hb, table_entry, EReal.coe_mul]
  rw [Finset.sum_congr rfl fun k _ => hL k]
  show _ = segval (fun d => x (ix2 n d) * y (ix2 n d)) l
  rw [hrow]
  exact row_eq (fun k => a k * b k) l

end Cert.RefSide

end
-- ==== Proof.Finite.lean ====
/-
  The precondition says every entry of both arrays is a real number.

  The precondition takes the absolute value of each array, compares it entry by entry with +infinity ("less than"),
  takes the conjunction of all the answers of each array, and the conjunction of the two results. If the outcome is 1
  then each of the two conjunctions is 1, so every comparison answered 1, and an extended real whose absolute value is
  below +infinity is a real number.
-/
import proofs.«110021_j53154515255873_2_alg».proof.Defs
import proofs.«110021_j53154515255873_2_alg».proof.Proof.Gen.Pre_finite_inputs
import proofs.«110021_j53154515255873_2_alg».proof.Proof.LibRealOps
import Idealize.ShloMosaic.Lib.ReduceAll
import Idealize.ShloMosaic.Lib.ValueIdx

noncomputable section

namespace Cert.RefSide

open Idealize.ShloMosaic Idealize.ShloMosaic.ValueIdx Cert.Pre_finite_inputs

/-- The scalar shape has one index. -/
instance subsingleton_scalar_idx : Subsingleton S_.Idx := ⟨fun a b => funext fun d => d.elim0⟩

/-- If the precondition's function answers 1 on two arrays, every entry of each is a real number. -/
theorem real_of_fn [Cert.Pre_finite_inputs.Facts] (x y : FVec Ideal Cert.Pre_finite_inputs.S2000000x16 .f32)
    (h : Cert.Pre_finite_inputs.fn (F := Ideal) x y = (fun _ => 1#1)) :
    (∀ i, ∃ r : ℝ, x i = (r : EReal)) ∧ (∀ i, ∃ r : ℝ, y i = (r : EReal)) := by
  have h0 := congrFun h ix0
  dsimp only [fn] at h0
  obtain ⟨hx, hy⟩ := IntOp.andi_eq_one.1 h0
  refine ⟨fun i => ?_, fun i => ?_⟩
  · exact (RealOps.cmp_abs_lt_inf (x i)).1 (Host.reduce_andi_all _ _ _ _ ix0 hx i)
  · exact (RealOps.cmp_abs_lt_inf (y i)).1 (Host.reduce_andi_all _ _ _ _ ix0 hy i)

end Cert.RefSide

end
-- ==== Proof.lean ====
/-
  Two programs compute, for each of 2,000,000 rows of sixteen products x(n, d) · y(n, d), the four weighted sums of the
  row's segments of widths 1, 3, 5 and 7 (the weight of segment l is the single-precision value nearest 1/sqrt(2l + 1)).

  The kernel packs eight rows into 128 lanes, multiplies lane by lane, sums each segment's lanes and multiplies the sum
  by the segment's weight. The reference multiplies the two arrays and contracts the sixteen products of a row with a
  16 × 4 table holding the weight of segment l in the rows of that segment and zero elsewhere.

  Over the extended reals the two agree when the inputs are finite: the table's zero entries contribute r · 0 = 0, and
  the remaining terms r · w sum to (sum of r) · w by distributivity, which holds for real r and real w (and fails at
  infinities, so finiteness of the inputs is used, and that each weight's bit pattern denotes a real number).
  Both sides are shown equal to one specification function of the two argument arrays.

  The three frame claims come from the programs' runs; the idealization rewrote nothing.
-/
import proofs.«110021_j53154515255873_2_alg».proof.Defs
import proofs.«110021_j53154515255873_2_alg».proof.Proof.Gen.Kernel
import proofs.«110021_j53154515255873_2_alg».proof.Proof.Gen.Kernel.Frame
import proofs.«110021_j53154515255873_2_alg».proof.Proof.Gen.KernelIdeal
import proofs.«110021_j53154515255873_2_alg».proof.Proof.Gen.KernelIdeal.Frame
import proofs.«110021_j53154515255873_2_alg».proof.Proof.Gen.ReferenceIdeal
import proofs.«110021_j53154515255873_2_alg».proof.Proof.Gen.Pre_finite_inputs
import proofs.«110021_j53154515255873_2_alg».proof.Proof.KRun
import proofs.«110021_j53154515255873_2_alg».proof.Proof.RefRun
import proofs.«110021_j53154515255873_2_alg».proof.Proof.RefValue
import proofs.«110021_j53154515255873_2_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : @Cert.frame_Kernel Cert.Kernel.Gen.facts Cert.Pre_finite_inputs.Gen.facts :=
  fun m ρ _ => Cert.Kernel.Gen.frame m ρ

/-- So does the kernel read over the extended reals. -/
theorem frame_kernel_ideal : @Cert.frame_KernelIdeal Cert.KernelIdeal.Gen.facts Cert.Pre_finite_inputs.Gen.facts :=
  fun m ρ _ => Cert.KernelIdeal.Gen.frame m ρ

/-- The reference's run, with its result forgotten. -/
theorem frame_reference : @Cert.frame_ReferenceIdeal Cert.ReferenceIdeal.Gen.facts Cert.Pre_finite_inputs.Gen.facts :=
  fun m ρ _ => (θ_run Cert.ReferenceIdeal.defs _ _).mono (fun _ h c => (h c).2) (Cert.RefSide.run m ρ)

/-- From memories agreeing on finite arguments both programs end with the specification of those arguments. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.SegSpec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), Cert.KSide.run m ρ, ?_⟩
  refine (θ_run Cert.ReferenceIdeal.defs _ _).mono (fun _ h c => ⟨(h c).1.trans ?_, (h c).2⟩) (Cert.RefSide.run m' ρ')
  rw [(hagree c).1, (hagree c).2]
  obtain ⟨hx, hy⟩ := Cert.RefSide.real_of_fn _ _ (hpre c)
  exact Cert.RefSide.refOut_eq_G _ _ hx hy

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
